-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x12x2048x64 : Shape := ⟨4, ![1, 12, 2048, 64]⟩
abbrev S2048x64 : Shape := ⟨2, ![2048, 64]⟩
abbrev S2048x2048 : Shape := ⟨2, ![2048, 2048]⟩
abbrev S_ : Shape := ⟨0, ![]⟩

class Facts : Prop where
  bcast_S_S1x12x2048x64 : S_.BroadcastsInDim S1x12x2048x64 (![] : Fin 0 → Fin S1x12x2048x64.rank)
  reducesTo_S1x12x2048x64_S_d0_1_2_3 : S1x12x2048x64.ReducesTo [0, 1, 2, 3] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S1x12x2048x64 .f32) (main_arg1 : FVec F S2048x64 .f32) (main_arg2 : FVec F S2048x2048 .f32) : IVec S_ 1 :=
  let main_v0 : FVec F S1x12x2048x64 .f32 := Host.absf main_arg0
  let main_cst : FVec F S_ .f32 := constant S_ .f32 0x7F800000#32
  let main_v1 : FVec F S1x12x2048x64 .f32 := broadcastInDim S1x12x2048x64 ![] bcast_S_S1x12x2048x64 main_cst
  let main_v2 : IVec S1x12x2048x64 1 := cmpf .olt main_v0 main_v1
  let main_c : IVec S_ 1 := constantI S_ 1 1#1
  let main_v3 : IVec S_ 1 := (fun x v => Host.reduce IntOp.andi x v reducesTo_S1x12x2048x64_S_d0_1_2_3 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S1x12x2048x64 : Shape := ⟨4, ![1, 12, 2048, 64]⟩
abbrev S2048x64 : Shape := ⟨2, ![2048, 64]⟩
abbrev S2048x2048 : Shape := ⟨2, ![2048, 2048]⟩
abbrev S1x12x2048x2048 : Shape := ⟨4, ![1, 12, 2048, 2048]⟩
abbrev S1x1x256x64 : Shape := ⟨4, ![1, 1, 256, 64]⟩
abbrev S256x2048 : Shape := ⟨2, ![256, 2048]⟩
abbrev S1x1x256x2048 : Shape := ⟨4, ![1, 1, 256, 2048]⟩
abbrev S256x64 : Shape := ⟨2, ![256, 64]⟩
abbrev S64x2048 : Shape := ⟨2, ![64, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S1x12x2048x64, .f32⟩
  | .hbm, ⟨1, _⟩ => ⟨S2048x64, .f32⟩
  | .hbm, ⟨2, _⟩ => ⟨S2048x2048, .f32⟩
  | .hbm, ⟨3, _⟩ => ⟨S1x12x2048x64, .bf16⟩
  | .hbm, ⟨4, _⟩ => ⟨S2048x64, .bf16⟩
  | .hbm, ⟨5, _⟩ => ⟨S2048x2048, .bf16⟩
  | .hbm, ⟨6, _⟩ => ⟨S1x12x2048x2048, .f32⟩
  | .local _ .vmem, ⟨0, _⟩ => ⟨S1x1x256x64, .bf16⟩
  | .local _ .vmem, ⟨1, _⟩ => ⟨S1x1x256x64, .bf16⟩
  | .local _ .vmem, ⟨2, _⟩ => ⟨S2048x64, .bf16⟩
  | .local _ .vmem, ⟨3, _⟩ => ⟨S256x2048, .f32⟩
  | .local _ .vmem, ⟨4, _⟩ => ⟨S256x2048, .f32⟩
  | .local _ .vmem, ⟨5, _⟩ => ⟨S2048x2048, .bf16⟩
  | .local _ .vmem, ⟨6, _⟩ => ⟨S1x1x256x2048, .f32⟩
  | .local _ .vmem, ⟨7, _⟩ => ⟨S1x1x256x2048, .f32⟩
  | _, _ => ⟨S1x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![12, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S2048x64_p1_0_S64x2048 : S2048x64.Transposes [1, 0] S64x2048
  inb_S256x2048_S256x2048_0_0 : ∀ a, (![0, 0] : Fin 2 → Nat) a + S256x2048.size a ≤ S256x2048.size a
  h_S256x2048 : 0 < S256x2048.numel
  natLt_1_32 : 1 < 32
  reduces_S256x2048_S256 : S256x2048.Reduces [1] S256
  shapeCasts_S256_S256x1 : S256.ShapeCasts S256x1
  broadcasts_S256x1_S256x2048 : S256x1.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  dot_S256x64_S64x2048_S256x2048_1_0_0_1_n_n_wf : DotDims.WF S256x64 S64x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S1x12x2048x64.size a
  hwx0_0 : ∀ i : grid0.Coords, EltTy.bits .bf16 = 32 ∨ (Rect.block (s := S1x12x2048x64) S1x1x256x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .bf16 = 32 ∨ (Rect.block (s := S2048x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x2048.size a ≤ S1x12x2048x2048.size a
  hwx0_4 : ∀ i : grid0.Coords, EltTy.bits .f32 = 32 ∨ (Rect.block (s := S1x12x2048x2048) S1x1x256x2048.size (cc0_transform_4 i) (hinb0_4 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x12x2048x64 : Shape := ⟨4, ![1, 12, 2048, 64]⟩
abbrev S2048x64 : Shape := ⟨2, ![2048, 64]⟩
abbrev S2048x2048 : Shape := ⟨2, ![2048, 2048]⟩
abbrev S1x12x2048x2048 : Shape := ⟨4, ![1, 12, 2048, 2048]⟩
abbrev S_ : Shape := ⟨0, ![]⟩
abbrev S1x1x2048x2048 : Shape := ⟨4, ![1, 1, 2048, 2048]⟩
abbrev S1x2048x2048 : Shape := ⟨3, ![1, 2048, 2048]⟩
abbrev S1x12x2048 : Shape := ⟨3, ![1, 12, 2048]⟩
abbrev S1x12x2048x1 : Shape := ⟨4, ![1, 12, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S1x12x2048x64, .f32⟩
  | .hbm, ⟨1, _⟩ => ⟨S2048x64, .f32⟩
  | .hbm, ⟨2, _⟩ => ⟨S2048x2048, .f32⟩
  | .hbm, ⟨3, _⟩ => ⟨S1x12x2048x2048, .f32⟩
  | .hbm, ⟨4, _⟩ => ⟨S_, .f32⟩
  | .hbm, ⟨5, _⟩ => ⟨S1x12x2048x2048, .f32⟩
  | .hbm, ⟨6, _⟩ => ⟨S1x12x2048x2048, .f32⟩
  | .hbm, ⟨7, _⟩ => ⟨S1x1x2048x2048, .f32⟩
  | .hbm, ⟨8, _⟩ => ⟨S1x12x2048x2048, .f32⟩
  | .hbm, ⟨9, _⟩ => ⟨S1x12x2048x2048, .f32⟩
  | .hbm, ⟨10, _⟩ => ⟨S_, .f32⟩
  | .hbm, ⟨11, _⟩ => ⟨S1x2048x2048, .f32⟩
  | .hbm, ⟨12, _⟩ => ⟨S1x1x2048x2048, .f32⟩
  | .hbm, ⟨13, _⟩ => ⟨S1x1x2048x2048, .f32⟩
  | .hbm, ⟨14, _⟩ => ⟨S_, .f32⟩
  | .hbm, ⟨15, _⟩ => ⟨S1x12x2048x2048, .f32⟩
  | .hbm, ⟨16, _⟩ => ⟨S1x12x2048x2048, .i1⟩
  | .hbm, ⟨17, _⟩ => ⟨S1x12x2048x2048, .f32⟩
  | .hbm, ⟨18, _⟩ => ⟨S1x12x2048x2048, .f32⟩
  | .hbm, ⟨19, _⟩ => ⟨S1x12x2048x2048, .f32⟩
  | .hbm, ⟨20, _⟩ => ⟨S_, .f32⟩
  | .hbm, ⟨21, _⟩ => ⟨S1x12x2048, .f32⟩
  | .hbm, ⟨22, _⟩ => ⟨S_, .f32⟩
  | .hbm, ⟨23, _⟩ => ⟨S1x12x2048, .f32⟩
  | .hbm, ⟨24, _⟩ => ⟨S1x12x2048, .f32⟩
  | .hbm, ⟨25, _⟩ => ⟨S1x12x2048x1, .f32⟩
  | .hbm, ⟨26, _⟩ => ⟨S1x12x2048x2048, .f32⟩
  | .hbm, ⟨27, _⟩ => ⟨S1x12x2048x2048, .f32⟩
  | .hbm, ⟨28, _⟩ => ⟨S1x12x2048x2048, .f32⟩
  | .hbm, ⟨29, _⟩ => ⟨S_, .f32⟩
  | .hbm, ⟨30, _⟩ => ⟨S1x12x2048, .f32⟩
  | .hbm, ⟨31, _⟩ => ⟨S1x12x2048x1, .f32⟩
  | .hbm, ⟨32, _⟩ => ⟨S1x12x2048x2048, .f32⟩
  | .hbm, ⟨33, _⟩ => ⟨S1x12x2048x2048, .f32⟩
  | .hbm, ⟨34, _⟩ => ⟨S1x12x2048x2048, .f32⟩
  | _, _ => ⟨S1x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S_S1x12x2048x2048 : S_.BroadcastsInDim S1x12x2048x2048 (![] : Fin 0 → Fin S1x12x2048x2048.rank)
  bcast_S2048x2048_S1x1x2048x2048_2_3 : S2048x2048.BroadcastsInDim S1x1x2048x2048 (![2, 3] : Fin 2 → Fin S1x1x2048x2048.rank)
  bcast_S1x1x2048x2048_S1x12x2048x2048_0_1_2_3 : S1x1x2048x2048.BroadcastsInDim S1x12x2048x2048 (![0, 1, 2, 3] : Fin 4 → Fin S1x12x2048x2048.rank)
  reducesTo_S1x12x2048x2048_S1x2048x2048_d1 : S1x12x2048x2048.ReducesTo [1] S1x2048x2048
  h_S_ : 0 < S_.numel
  bcast_S1x2048x2048_S1x1x2048x2048_0_2_3 : S1x2048x2048.BroadcastsInDim S1x1x2048x2048 (![0, 2, 3] : Fin 3 → Fin S1x1x2048x2048.rank)
  reducesTo_S1x12x2048x2048_S1x12x2048_d3 : S1x12x2048x2048.ReducesTo [3] S1x12x2048
  bcast_S_S1x12x2048 : S_.BroadcastsInDim S1x12x2048 (![] : Fin 0 → Fin S1x12x2048.rank)
  bcast_S1x12x2048_S1x12x2048x1_0_1_2 : S1x12x2048.BroadcastsInDim S1x12x2048x1 (![0, 1, 2] : Fin 3 → Fin S1x12x2048x1.rank)
  bcast_S1x12x2048x1_S1x12x2048x2048_0_1_2_3 : S1x12x2048x1.BroadcastsInDim S1x12x2048x2048 (![0, 1, 2, 3] : Fin 4 → Fin S1x12x2048x2048.rank)
  dot_S1x12x2048x64_S2048x64_S1x12x2048x2048_3_1_012_0_n_n_wf : DotDims.WF S1x12x2048x64 S2048x64 S1x12x2048x2048 [3] [1] [0, 1, 2] [0] [] []
  dot_S1x12x2048x2048_S2048x2048_S1x12x2048x2048_3_0_012_1_n_n_wf : DotDims.WF S1x12x2048x2048 S2048x2048 S1x12x2048x2048 [3] [0] [0, 1, 2] [1] [] []

variable [Facts₀]

def dot_S1x12x2048x64_S2048x64_S1x12x2048x2048_3_1_012_0_n_n : DotDims S1x12x2048x64 S2048x64 S1x12x2048x2048 where
  lhsContracting := [3]
  rhsContracting := [1]
  lhsNonContracting := [0, 1, 2]
  rhsNonContracting := [0]
  lhsBatch := []
  rhsBatch := []
  wf := dot_S1x12x2048x64_S2048x64_S1x12x2048x2048_3_1_012_0_n_n_wf
def dot_S1x12x2048x2048_S2048x2048_S1x12x2048x2048_3_0_012_1_n_n : DotDims S1x12x2048x2048 S2048x2048 S1x12x2048x2048 where
  lhsContracting := [3]
  rhsContracting := [0]
  lhsNonContracting := [0, 1, 2]
  rhsNonContracting := [1]
  lhsBatch := []
  rhsBatch := []
  wf := dot_S1x12x2048x2048_S2048x2048_S1x12x2048x2048_3_0_012_1_n_n_wf

class Facts : Prop extends Facts₀ where

variable [Facts]
-- ==== Proof.AttnRow.lean ====
/-
  The function both programs compute, stated once and free of either program.

  For one head and one query row the computation is a row of attention whose logits are only used through a 0/1 gate:
    logit t  = (∑ d, q d · K t d) · c + b t                (c the one scale word, b the row of the additive matrix)
    gate t   = 1 if logit t ≤ 0 else 0
    top      = the greatest gate of the row
    weight t = exp (gate t − top),   mass = ∑ t, weight t
    out u    = ∑ t, (weight t / mass) · V t u
  The whole result at (head h, row s, column u) is that row function of row (h, s) of the first argument, all of the
  second, row s of the third as b, and the third again as V.

  Also here: the two extended-real facts that let a term "(g − g) + x" collapse to x when g is an ordinary real, and
  that a scaled finite dot product of ordinary reals is an ordinary real.
-/
import Idealize.ShloMosaic.PureOps.Ideal
import Idealize.ShloMosaic.PureOps.Ideal.Laws
import Idealize.ShloMosaic.Lib.ValueIdx

noncomputable section

namespace Cert.AttnRow

open Idealize.ShloMosaic Idealize.ShloMosaic.ValueIdx

/-- The scale both programs multiply the dot products by: the single-precision word nearest 1/√2048, read exactly. -/
def scale : EReal := Ideal.ofBits .f32 0x3CB504F3#32

/-- A comparison bit as a number: 1 where `z ≤ 0`, else 0. -/
def gate (z : EReal) : EReal := (((Ideal.cmp .ole z 0).toNat : ℝ) : EReal)

/-- The logit of key `t`: the scaled dot product of the query row with key `t`, plus the additive term. -/
def logit (q : Fin 64 → EReal) (K : Fin 2048 → Fin 64 → EReal) (b : Fin 2048 → EReal) (t : Fin 2048) : EReal :=
  (∑ d : Fin 64, q d * K t d) * scale + b t

def gates (q : Fin 64 → EReal) (K : Fin 2048 → Fin 64 → EReal) (b : Fin 2048 → EReal) (t : Fin 2048) : EReal :=
  gate (logit q K b t)

/-- The row's greatest gate (the fold of `max` from −∞). -/
def top (q : Fin 64 → EReal) (K : Fin 2048 → Fin 64 → EReal) (b : Fin 2048 → EReal) : EReal :=
  (Finset.univ : Finset (Fin 2048)).fold max ⊥ (gates q K b)

def weight (q : Fin 64 → EReal) (K : Fin 2048 → Fin 64 → EReal) (b : Fin 2048 → EReal) (t : Fin 2048) : EReal :=
  Ideal.exp (gates q K b t - top q K b)

def mass (q : Fin 64 → EReal) (K : Fin 2048 → Fin 64 → EReal) (b : Fin 2048 → EReal) : EReal :=
  ∑ t : Fin 2048, weight q K b t

/-- One output row: the normalized weights against the value matrix. -/
def rowOut (q : Fin 64 → EReal) (K : Fin 2048 → Fin 64 → EReal) (b : Fin 2048 → EReal) (V : Fin 2048 → Fin 2048 → EReal)
    (u : Fin 2048) : EReal :=
  ∑ t : Fin 2048, Ideal.div (weight q K b t) (mass q K b) * V t u

/-- Row `(h, s)` of the first argument: the query. -/
abbrev qrow (x0 : (⟨4, ![1, 12, 2048, 64]⟩ : Shape).Idx → EReal) (h : Fin 12) (s : Fin 2048) : Fin 64 → EReal :=
  fun d => x0 (ix4 (0 : Fin 1) h s d)
/-- The second argument by coordinates: the keys. -/
abbrev keys (x1 : (⟨2, ![2048, 64]⟩ : Shape).Idx → EReal) : Fin 2048 → Fin 64 → EReal := fun t d => x1 (ix2 t d)
/-- Row `s` of the third argument: the additive term. -/
abbrev brow (x2 : (⟨2, ![2048, 2048]⟩ : Shape).Idx → EReal) (s : Fin 2048) : Fin 2048 → EReal := fun t => x2 (ix2 s t)
/-- The third argument by coordinates: the values. -/
abbrev vals (x2 : (⟨2, ![2048, 2048]⟩ : Shape).Idx → EReal) : Fin 2048 → Fin 2048 → EReal := fun t u => x2 (ix2 t u)

/-- The whole result array as one function of the three argument arrays. -/
def G (x0 : (⟨4, ![1, 12, 2048, 64]⟩ : Shape).Idx → EReal) (x1 : (⟨2, ![2048, 64]⟩ : Shape).Idx → EReal)
    (x2 : (⟨2, ![2048, 2048]⟩ : Shape).Idx → EReal) (i : (⟨4, ![1, 12, 2048, 2048]⟩ : Shape).Idx) : EReal :=
  rowOut (qrow x0 (i 1 : Fin 12) (i 2 : Fin 2048)) (keys x1) (brow x2 (i 2 : Fin 2048)) (vals x2) (i 3 : Fin 2048)

/-! ## Ordinary reals inside the extended reals -/

/-- The word for −∞. -/
theorem ofBits_negInf : Ideal.ofBits .f32 0xFF800000#32 = ⊥ := by simp [Ideal.ofBits, Ideal.ieee]

/-- The scale word denotes an ordinary real. -/
theorem scale_real : scale ≠ ⊤ ∧ scale ≠ ⊥ := by
  unfold scale
  constructor <;> simp [Ideal.ofBits, Ideal.ieee, -EReal.coe_mul]

/-- A finite sum of ordinary reals is the ordinary real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A scaled dot product of ordinary reals is an ordinary real. -/
theorem scaled_dot_real (q k : Fin 64 → EReal) (hq : ∀ d, q d ≠ ⊤ ∧ q d ≠ ⊥) (hk : ∀ d, k d ≠ ⊤ ∧ k d ≠ ⊥) :
    (∑ d : Fin 64, q d * k d) * scale ≠ ⊤ ∧ (∑ d : Fin 64, q d * k d) * scale ≠ ⊥ := by
  lift q to Fin 64 → ℝ using hq
  lift k to Fin 64 → ℝ using hk
  obtain ⟨c, hc⟩ : ∃ c : ℝ, scale = (c : EReal) := by
    have h := scale_real
    lift scale to ℝ using h with c hc
    exact ⟨c, rfl⟩
  rw [hc]
  simp only [← EReal.coe_mul, coe_sum]
  exact ⟨EReal.coe_ne_top _, EReal.coe_ne_bot _⟩

/-- The greatest of finitely many ordinary reals, taken from −∞ over a nonempty index set, is an ordinary real. -/
theorem fold_max_real {n : ℕ} (f : Fin (n + 1) → EReal) (hf : ∀ k, f k ≠ ⊤ ∧ f k ≠ ⊥) :
    (Finset.univ : Finset (Fin (n + 1))).fold max ⊥ f ≠ ⊤ ∧ (Finset.univ : Finset (Fin (n + 1))).fold max ⊥ f ≠ ⊥ := by
  constructor
  · refine ne_of_lt ((Finset.fold_max_lt _).mpr ⟨bot_lt_top, fun k _ => lt_top_iff_ne_top.mpr (hf k).1⟩)
  · refine ne_of_gt ((Finset.lt_fold_max _).mpr (Or.inr ⟨0, Finset.mem_univ _, bot_lt_iff_ne_bot.mpr (hf 0).2⟩))

/-- For an ordinary real `g`, the term `(g − g) + x` is `x`. -/
theorem sub_self_add (g x : EReal) (hg : g ≠ ⊤ ∧ g ≠ ⊥) : (g - g) + x = x := by
  rw [EReal.sub_self hg.1 hg.2, zero_add]

end Cert.AttnRow

end
-- ==== Proof.InputsReal.lean ====
/-
  The precondition says every entry of the three arguments is an ordinary real.

  The predicate is the conjunction of three tests "every |x| is below +∞", each an `and` over all entries of the bit
  |x| < +∞. On the extended reals |x| is max x (−x), which is +∞ at both infinities, so the bit is 1 exactly at the
  ordinary reals.
-/
import proofs.«182256_j15908558865563_1_alg».proof.Pre_finite_inputs
import proofs.«182256_j15908558865563_1_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Reals

open Cert.Pre_finite_inputs Cert.Pre_finite_inputs.Gen Idealize.ShloMosaic

/-- The bit "|x| < +∞" is 1 only at an ordinary real. -/
theorem real_of_abs_lt (x : EReal)
    (h : Ideal.cmp .olt (max x (-x)) (Ideal.ofBits .f32 0x7F800000#32) = 1#1) : x ≠ ⊤ ∧ x ≠ ⊥ := by
  have hT : Ideal.ofBits .f32 0x7F800000#32 = ⊤ := by simp [Ideal.ofBits, Ideal.ieee]
  rw [hT] at h
  induction x using EReal.rec with
  | bot => simp [Ideal.cmp] at h
  | top => simp [Ideal.cmp] at h
  | coe r => exact ⟨EReal.coe_ne_top r, EReal.coe_ne_bot r⟩

instance : Subsingleton S_.Idx := ⟨fun a b => funext fun d => d.elim0⟩

/-- From the predicate holding to every entry of every argument being an ordinary real. -/
theorem reals_of_pre (a0 : FVec Ideal S1x12x2048x64 .f32) (a1 : FVec Ideal S2048x64 .f32) (a2 : FVec Ideal S2048x2048 .f32)
    (h : fn (F := Ideal) a0 a1 a2 = fun _ => 1#1) :
    (∀ j, a0 j ≠ ⊤ ∧ a0 j ≠ ⊥) ∧ (∀ j, a1 j ≠ ⊤ ∧ a1 j ≠ ⊥) ∧ (∀ j, a2 j ≠ ⊤ ∧ a2 j ≠ ⊥) := by
  have h0 := congrFun h ValueIdx.ix0
  dsimp only [fn] at h0
  obtain ⟨h01, h2⟩ := IntOp.andi_eq_one.mp h0
  obtain ⟨h0', h1⟩ := IntOp.andi_eq_one.mp h01
  refine ⟨fun j => ?_, fun j => ?_, fun j => ?_⟩
  · exact real_of_abs_lt _ (Host.reduce_andi_all _ _ _ _ _ h0' j)
  · exact real_of_abs_lt _ (Host.reduce_andi_all _ _ _ _ _ h1 j)
  · exact real_of_abs_lt _ (Host.reduce_andi_all _ _ _ _ _ h2 j)

end Cert.Pre_finite_inputs.Reals

end
-- ==== Proof.RefRow.lean ====
/-
  The reference program computes the attention-row function.

  Stage by stage, at an index written by its coordinates (batch 0, head h, row s, column t): the scaled dot product, the
  logit, the gate, the row's greatest gate, the weight, the mass, the normalized weight, and last the product with the
  value matrix. The reference also adds to each gate the difference g − g, where g is the greatest scaled dot product over
  the twelve heads; g is an ordinary real when the first two arguments hold ordinary reals, so the difference is zero.
  It takes the greatest gate once more against −∞, which changes nothing.
-/
import proofs.«182256_j15908558865563_1_alg».proof.Proof.Gen.ReferenceIdeal.Read
import proofs.«182256_j15908558865563_1_alg».proof.Proof.AttnRow
import Idealize.ShloMosaic.PureOps.Reduce

noncomputable section

namespace Cert.ReferenceIdeal.RefRow

open Cert.ReferenceIdeal Cert.ReferenceIdeal.Gen Cert.ReferenceIdeal.Read Idealize.ShloMosaic Idealize.ShloMosaic.ValueIdx
open Cert.AttnRow

/-- Two indices are equal when their coordinates are, axis by axis. -/
local macro "idx_ext" : tactic => `(tactic| (funext a; apply Fin.ext; fin_cases a <;> rfl))

variable (x0 : FVec Ideal S1x12x2048x64 .f32) (x1 : FVec Ideal S2048x64 .f32) (x2 : FVec Ideal S2048x2048 .f32)

/-- The scaled dot product of query row (h, s) with key t. -/
theorem v2_at (h : Fin 12) (s t : Fin 2048) :
    val_main_v2 (F := Ideal) x0 x1 (ix4 (0 : Fin 1) h s t) = (∑ d : Fin 64, qrow x0 h s d * keys x1 t d) * scale := by
  rw [val_main_v2_apply, val_main_v0_apply, val_main_v1_apply, val_main_cst_apply]
  have el : ∀ k, lidx_main_v0 (ix4 (0 : Fin 1) h s t) k = ix4 (0 : Fin 1) h s k := fun k => by idx_ext
  have er : ∀ k, ridx_main_v0 (ix4 (0 : Fin 1) h s t) k = ix2 t k := fun k => by idx_ext
  simp only [el, er]
  rfl

/-- The logit. -/
theorem v5_at (h : Fin 12) (s t : Fin 2048) :
    val_main_v5 (F := Ideal) x0 x1 x2 (ix4 (0 : Fin 1) h s t) = logit (qrow x0 h s) (keys x1) (brow x2 s) t := by
  rw [val_main_v5_apply, v2_at, val_main_v4_apply, val_main_v3_apply]
  have e : idx_main_v3 (idx_main_v4 (ix4 (0 : Fin 1) h s t)) = ix2 s t := by idx_ext
  rw [e]
  rfl

/-- Column k put back into (0, h, s) is (0, h, s, k). -/
theorem lift_col (hred : S1x12x2048x2048.Reduces [3] S1x12x2048) (h : Fin 12) (s : Fin 2048) (k : Fin 2048) :
    hred.lift (ix3 (0 : Fin 1) h s) k = ix4 (0 : Fin 1) h s k := by idx_ext

section Real

variable (hx0 : ∀ j, x0 j ≠ ⊤ ∧ x0 j ≠ ⊥) (hx1 : ∀ j, x1 j ≠ ⊤ ∧ x1 j ≠ ⊥)
include hx0 hx1

/-- Every scaled dot product is an ordinary real. -/
theorem v2_real (j : S1x12x2048x2048.Idx) :
    val_main_v2 (F := Ideal) x0 x1 j ≠ ⊤ ∧ val_main_v2 (F := Ideal) x0 x1 j ≠ ⊥ := by
  obtain ⟨a, h, s, t, rfl⟩ : ∃ (a : Fin 1) (h : Fin 12) (s t : Fin 2048), j = ix4 a h s t := ⟨j 0, j 1, j 2, j 3, eq_ix4 j⟩
  obtain rfl : a = 0 := Subsingleton.elim _ _
  rw [v2_at]
  exact scaled_dot_real _ _ (fun d => hx0 _) (fun d => hx1 _)

/-- So is the greatest of them over the twelve heads. -/
theorem v6_real (j : S1x2048x2048.Idx) :
    val_main_v6 (F := Ideal) x0 x1 j ≠ ⊤ ∧ val_main_v6 (F := Ideal) x0 x1 j ≠ ⊥ := by
  unfold val_main_v6
  have hred : S1x12x2048x2048.Reduces [1] S1x2048x2048 := by decide
  rw [Host.reduce_eq_fold_single FloatOps.maximumf _ _ reducesTo_S1x12x2048x2048_S1x2048x2048_d1 hred h_S_ j,
    val_main_cst_0_apply, Ideal.ofBits_def, ofBits_negInf]
  exact fold_max_real (n := 11) (fun k => val_main_v2 (F := Ideal) x0 x1 (hred.lift j k)) (fun k => v2_real x0 x1 hx0 hx1 _)

/-- The gate: the reference's correction term g − g vanishes. -/
theorem v13_at (h : Fin 12) (s t : Fin 2048) :
    val_main_v13 (F := Ideal) x0 x1 x2 (ix4 (0 : Fin 1) h s t) = gates (qrow x0 h s) (keys x1) (brow x2 s) t := by
  rw [val_main_v13_apply, val_main_v12_apply, val_main_v8_apply, val_main_v7_apply, val_main_v11_apply, val_main_v10_apply,
    v5_at, val_main_v9_apply, val_main_cst_1_apply, Ideal.addf_def, Ideal.subf_def,
    sub_self_add _ _ (v6_real x0 x1 hx0 hx1 _), Ideal.ofBits_def, Ideal.ofBits_zero_f32]
  rfl

/-- The greatest gate of a row as a fold over the row's 2048 columns. -/
theorem v14_fold (h : Fin 12) (s : Fin 2048) (hred : S1x12x2048x2048.Reduces [3] S1x12x2048) :
    val_main_v14 (F := Ideal) x0 x1 x2 (ix3 (0 : Fin 1) h s)
      = (Finset.univ : Finset (Fin 2048)).fold max ⊥
          (fun k => val_main_v13 (F := Ideal) x0 x1 x2 (hred.lift (ix3 (0 : Fin 1) h s) k)) := by
  unfold val_main_v14
  rw [Host.reduce_eq_fold_single FloatOps.maximumf _ _ reducesTo_S1x12x2048x2048_S1x12x2048_d3 hred h_S_,
    val_main_cst_2_apply, Ideal.ofBits_def, ofBits_negInf]
  rfl

/-- The row's greatest gate. -/
theorem v16_at (h : Fin 12) (s : Fin 2048) :
    val_main_v16 (F := Ideal) x0 x1 x2 (ix3 (0 : Fin 1) h s) = top (qrow x0 h s) (keys x1) (brow x2 s) := by
  have hred : S1x12x2048x2048.Reduces [3] S1x12x2048 := by decide
  rw [val_main_v16_apply, val_main_v15_apply, val_main_cst_3_apply, v14_fold x0 x1 x2 hx0 hx1 h s hred]
  show max (Ideal.ofBits .f32 0xFF800000#32) _ = _
  rw [ofBits_negInf, max_eq_right bot_le]
  unfold top
  refine Finset.fold_congr fun k _ => ?_
  exact (congrArg (val_main_v13 (F := Ideal) x0 x1 x2) (lift_col hred h s k)).trans (v13_at x0 x1 x2 hx0 hx1 h s k)

/-- The weight. -/
theorem v20_at (h : Fin 12) (s t : Fin 2048) :
    val_main_v20 (F := Ideal) x0 x1 x2 (ix4 (0 : Fin 1) h s t) = weight (qrow x0 h s) (keys x1) (brow x2 s) t := by
  rw [val_main_v20_apply, val_main_v19_apply, v13_at x0 x1 x2 hx0 hx1, val_main_v18_apply, val_main_v17_apply]
  have e : idx_main_v17 (idx_main_v18 (ix4 (0 : Fin 1) h s t)) = ix3 (0 : Fin 1) h s := by idx_ext
  rw [e, v16_at x0 x1 x2 hx0 hx1, Ideal.hostUnary_exp_def, Ideal.subf_def]
  unfold weight
  rfl

/-- The mass. -/
theorem v21_at (h : Fin 12) (s : Fin 2048) :
    val_main_v21 (F := Ideal) x0 x1 x2 (ix3 (0 : Fin 1) h s) = mass (qrow x0 h s) (keys x1) (brow x2 s) := by
  rw [val_main_v21_apply, val_main_cst_4_apply, Ideal.ofBits_def, Ideal.ofBits_zero_f32, zero_add]
  unfold mass
  refine Finset.sum_congr rfl fun k _ => ?_
  have e : idx_main_v21 (ix3 (0 : Fin 1) h s) k = ix4 (0 : Fin 1) h s k := by idx_ext
  rw [e, v20_at x0 x1 x2 hx0 hx1]

/-- The normalized weight. -/
theorem v24_at (h : Fin 12) (s t : Fin 2048) :
    val_main_v24 (F := Ideal) x0 x1 x2 (ix4 (0 : Fin 1) h s t)
      = Ideal.div (weight (qrow x0 h s) (keys x1) (brow x2 s) t) (mass (qrow x0 h s) (keys x1) (brow x2 s)) := by
  rw [val_main_v24_apply, v20_at x0 x1 x2 hx0 hx1, val_main_v23_apply, val_main_v22_apply]
  have e : idx_main_v22 (idx_main_v23 (ix4 (0 : Fin 1) h s t)) = ix3 (0 : Fin 1) h s := by idx_ext
  rw [e, v21_at x0 x1 x2 hx0 hx1, Ideal.hostDivf_def]

/-- The reference's result is the attention-row function of the arguments, index by index. -/
theorem result_eq : val_main_v25 (F := Ideal) x0 x1 x2 = G x0 x1 x2 := by
  funext i
  obtain ⟨a, h, s, u, rfl⟩ : ∃ (a : Fin 1) (h : Fin 12) (s u : Fin 2048), i = ix4 a h s u := ⟨i 0, i 1, i 2, i 3, eq_ix4 i⟩
  obtain rfl : a = 0 := Subsingleton.elim _ _
  rw [val_main_v25_apply]
  unfold G rowOut
  refine Finset.sum_congr rfl fun k _ => ?_
  have el : lidx_main_v25 (ix4 (0 : Fin 1) h s u) k = ix4 (0 : Fin 1) h s k := by idx_ext
  have er : ridx_main_v25 (ix4 (0 : Fin 1) h s u) k = ix2 k u := by idx_ext
  rw [el, er, v24_at x0 x1 x2 hx0 hx1]

end Real

end Cert.ReferenceIdeal.RefRow

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KernelRow.lean ====
/-
  The kernel's body computes the attention-row function on its blocks.

  At a grid point the body holds a 256-row block of queries for one head, all keys, the matching 256 rows of the additive
  matrix, and the whole value matrix. Its stages, read at row r and column t of the block: the dot products (the keys are
  transposed first, so entry (r, t) pairs query row r with key t), the logits, the 0/1 gates, each row's greatest gate
  (kept as a column and repeated along the row), the weights, each row's mass, the normalized weights, and their product with
  the value matrix. Changes of float format are the identity on the extended reals. Row r of the stored block is the
  attention row of query r.
-/
import proofs.«182256_j15908558865563_1_alg».proof.Proof.Gen.KernelIdeal.Skeleton
import proofs.«182256_j15908558865563_1_alg».proof.Proof.AttnRow
import proofs.«182256_j15908558865563_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Idealize.ShloMosaic.ColumnLayout
open Cert.AttnRow

/-- Two indices are equal when their coordinates are, axis by axis. -/
local macro "idx_ext" : tactic => `(tactic| (funext a; apply Fin.ext; fin_cases a <;> rfl))

variable (v0 : FVec Ideal S1x1x256x64 .bf16) (v2 : FVec Ideal S2048x64 .bf16) (v8 : FVec Ideal S256x2048 .f32)
  (v24 : FVec Ideal S2048x2048 .bf16)

/-! ## The body's stages, named -/

/-- Queries against transposed keys. -/
def dots : FVec Ideal S256x2048 .f32 :=
  matmul dot_S256x64_S64x2048_S256x2048_1_0_0_1_n_n none (shapeCast S256x64 v0 shapeCasts_S1x1x256x64_S256x64)
    (transpose S64x2048 [1, 0] (shapeCast S2048x64 v2 shapeCasts_S2048x64_S2048x64) transposes_S2048x64_p1_0_S64x2048)
    (constant S256x2048 .f32 0x00000000#32)

def logits : FVec Ideal S256x2048 .f32 :=
  addf (mulf (dots v0 v2) (broadcast S256x2048 (Scalar.ofBits .f32 0x3CB504F3#32))) v8

def gatesV : FVec Ideal S256x2048 .f32 :=
  sitofp .f32 (extui 32 (cmpf .ole (logits v0 v2 v8) (broadcast S256x2048 (Scalar.ofBits .f32 0x00000000#32))) natLt_1_32)

def topV : FVec Ideal S256 .f32 :=
  multiReduction .maximumf [1] S256 (gatesV v0 v2 v8) 0xFF800000#32 reduces_S256x2048_S256 (.inl rfl) rfl

def weightsV : FVec Ideal S256x2048 .f32 :=
  exp (subf (gatesV v0 v2 v8)
    (broadcastTo S256x2048 (shapeCast S256x1 (topV v0 v2 v8) shapeCasts_S256_S256x1) broadcasts_S256x1_S256x2048))

def massV : FVec Ideal S256 .f32 :=
  multiReduction .add [1] S256 (weightsV v0 v2 v8) 0x00000000#32 reduces_S256x2048_S256 (.inl rfl) rfl

def probsV : FVec Ideal S256x2048 .bf16 :=
  truncf .bf16 (divf (weightsV v0 v2 v8)
    (broadcastTo S256x2048 (shapeCast S256x1 (massV v0 v2 v8) shapeCasts_S256_S256x1) broadcasts_S256x1_S256x2048)) bitsLt_bf16_f32

def outV : FVec Ideal S256x2048 .f32 :=
  matmul dot_S256x2048_S2048x2048_S256x2048_1_0_0_1_n_n none (probsV v0 v2 v8)
    (shapeCast S2048x2048 v24 shapeCasts_S2048x2048_S2048x2048) (constant S256x2048 .f32 0x00000000#32)

/-- The stored value is the last stage with two unit axes put in front. -/
theorem pay_eq : k0_pay1 (F := Ideal) v0 v2 v8 v24
    = shapeCast S1x1x256x2048 (outV v0 v2 v8 v24) shapeCasts_S256x2048_S1x1x256x2048 := rfl

/-! ## The block's inputs by coordinates -/

abbrev qB (r : Fin 256) : Fin 64 → EReal := fun d => v0 (ix4 (0 : Fin 1) (0 : Fin 1) r d)
abbrev kB : Fin 2048 → Fin 64 → EReal := fun t d => v2 (ix2 t d)
abbrev bB (r : Fin 256) : Fin 2048 → EReal := fun t => v8 (ix2 r t)
abbrev vB : Fin 2048 → Fin 2048 → EReal := fun t u => v24 (ix2 t u)

/-! ## The two matrix products' operand indices -/

theorem lhs1_0 (i : S256x2048.Idx) (q : dot_S256x64_S64x2048_S256x2048_1_0_0_1_n_n.contr.Idx) : (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs1_1 (i : S256x2048.Idx) (q : dot_S256x64_S64x2048_S256x2048_1_0_0_1_n_n.contr.Idx) : (dot_S256x64_S64x2048_S256x2048_1_0_0_1_n_n.lhsIdx i q 1).val = (q ⟨0, by decide⟩).val :=
  dot_S256x64_S64x2048_S256x2048_1_0_0_1_n_n.lhsIdx_val_of_single rfl i q
theorem rhs1_0 (i : S256x2048.Idx) (q : dot_S256x64_S64x2048_S256x2048_1_0_0_1_n_n.contr.Idx) : (dot_S256x64_S64x2048_S256x2048_1_0_0_1_n_n.rhsIdx i q 0).val = (q ⟨0, by decide⟩).val :=
  dot_S256x64_S64x2048_S256x2048_1_0_0_1_n_n.rhsIdx_val_of_single rfl i q
theorem rhs1_1 (i : S256x2048.Idx) (q : dot_S256x64_S64x2048_S256x2048_1_0_0_1_n_n.contr.Idx) : (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

theorem lhs1 (r : Fin 256) (t : Fin 2048) (k : Fin 64) :
    dot_S256x64_S64x2048_S256x2048_1_0_0_1_n_n.lhsIdx (ix2 r t) ((contrEquiv1 dot_S256x64_S64x2048_S256x2048_1_0_0_1_n_n 64 rfl rfl).symm k) = ix2 r k := by
  have hk := contrEquiv1_symm_val dot_S256x64_S64x2048_S256x2048_1_0_0_1_n_n 64 rfl rfl k
  funext a; apply Fin.ext
  match a with
  | ⟨0, _⟩ => exact lhs1_0 _ _
  | ⟨1, _⟩ => exact (lhs1_1 _ _).trans hk

theorem rhs1 (r : Fin 256) (t : Fin 2048) (k : Fin 64) :
    dot_S256x64_S64x2048_S256x2048_1_0_0_1_n_n.rhsIdx (ix2 r t) ((contrEquiv1 dot_S256x64_S64x2048_S256x2048_1_0_0_1_n_n 64 rfl rfl).symm k) = ix2 k t := by
  have hk := contrEquiv1_symm_val dot_S256x64_S64x2048_S256x2048_1_0_0_1_n_n 64 rfl rfl k
  funext a; apply Fin.ext
  match a with
  | ⟨0, _⟩ => exact (rhs1_0 _ _).trans hk
  | ⟨1, _⟩ => exact rhs1_1 _ _

theorem lhs2_0 (i : S256x2048.Idx) (q : dot_S256x2048_S2048x2048_S256x2048_1_0_0_1_n_n.contr.Idx) : (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs2_1 (i : S256x2048.Idx) (q : dot_S256x2048_S2048x2048_S256x2048_1_0_0_1_n_n.contr.Idx) : (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs2_0 (i : S256x2048.Idx) (q : dot_S256x2048_S2048x2048_S256x2048_1_0_0_1_n_n.contr.Idx) : (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs2_1 (i : S256x2048.Idx) (q : dot_S256x2048_S2048x2048_S256x2048_1_0_0_1_n_n.contr.Idx) : (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

theorem lhs2 (r : Fin 256) (t : Fin 2048) (k : Fin 2048) :
    dot_S256x2048_S2048x2048_S256x2048_1_0_0_1_n_n.lhsIdx (ix2 r t) ((contrEquiv1 dot_S256x2048_S2048x2048_S256x2048_1_0_0_1_n_n 2048 rfl rfl).symm k) = ix2 r k := by
  have hk := contrEquiv1_symm_val dot_S256x2048_S2048x2048_S256x2048_1_0_0_1_n_n 2048 rfl rfl k
  funext a; apply Fin.ext
  match a with
  | ⟨0, _⟩ => exact lhs2_0 _ _
  | ⟨1, _⟩ => exact (lhs2_1 _ _).trans hk

theorem rhs2 (r : Fin 256) (t : Fin 2048) (k : Fin 2048) :
    dot_S256x2048_S2048x2048_S256x2048_1_0_0_1_n_n.rhsIdx (ix2 r t) ((contrEquiv1 dot_S256x2048_S2048x2048_S256x2048_1_0_0_1_n_n 2048 rfl rfl).symm k) = ix2 k t := by
  have hk := contrEquiv1_symm_val dot_S256x2048_S2048x2048_S256x2048_1_0_0_1_n_n 2048 rfl rfl k
  funext a; apply Fin.ext
  match a with
  | ⟨0, _⟩ => exact (rhs2_0 _ _).trans hk
  | ⟨1, _⟩ => exact rhs2_1 _ _

/-! ## The stages at an index -/

/-- The query block with its two unit axes dropped reads the block at (0, 0, r, d). -/
theorem query_at (r : Fin 256) (d : Fin 64) :
    shapeCast S256x64 v0 shapeCasts_S1x1x256x64_S256x64 (ix2 r d) = v0 (ix4 (0 : Fin 1) (0 : Fin 1) r d) :=
  shapeCast_apply v0 shapeCasts_S1x1x256x64_S256x64 _ _ (by
    rw [Shape.rowMajor_val_four, Shape.rowMajor_val_two]
    show ((0 * 1 + 0) * 256 + r.val) * 64 + d.val = r.val * 64 + d.val
    omega)

/-- The transposed keys at (d, t) are the keys at (t, d). -/
theorem keysT_at (d : Fin 64) (t : Fin 2048) :
    transpose S64x2048 [1, 0] (shapeCast S2048x64 v2 shapeCasts_S2048x64_S2048x64) transposes_S2048x64_p1_0_S64x2048 (ix2 d t)
      = v2 (ix2 t d) := by
  rw [shapeCast_self]
  exact transpose_ix2_apply v2 transposes_S2048x64_p1_0_S64x2048 d t

theorem dots_at (r : Fin 256) (t : Fin 2048) :
    dots v0 v2 (ix2 r t) = ∑ d : Fin 64, qB v0 r d * kB v2 t d := by
  unfold dots
  simp only [matmul]
  rw [Ideal.matmul_constant_zero_apply,
    ← Equiv.sum_comp (contrEquiv1 dot_S256x64_S64x2048_S256x2048_1_0_0_1_n_n 64 rfl rfl).symm]
  refine Finset.sum_congr rfl fun k _ => ?_
  rw [lhs1, rhs1, query_at, keysT_at]

theorem logits_at (r : Fin 256) (t : Fin 2048) :
    logits v0 v2 v8 (ix2 r t) = logit (qB v0 r) (kB v2) (bB v8 r) t := by
  unfold logits
  rw [addf_apply, mulf_apply, dots_at, broadcast_apply]
  unfold logit scale
  exact congrArg (· + v8 (ix2 r t)) rfl

/-- A comparison bit widened to 32 bits and read as a signed integer is the bit read as a number. -/
theorem bit_toInt (b : BitVec 1) : (((b.setWidth 32).toInt : ℝ) : EReal) = ((b.toNat : ℝ) : EReal) := by
  have h : ∀ b : BitVec 1, (b.setWidth 32).toInt = (b.toNat : ℤ) := by decide
  rw [h b]; norm_cast

theorem gatesV_at (r : Fin 256) (t : Fin 2048) :
    gatesV v0 v2 v8 (ix2 r t) = gates (qB v0 r) (kB v2) (bB v8 r) t := by
  unfold gatesV
  rw [sitofp_apply, extui_apply, cmpf_apply, logits_at, broadcast_apply]
  show (((((Ideal.cmp .ole (logit (qB v0 r) (kB v2) (bB v8 r) t) (Ideal.ofBits .f32 0x00000000#32)).setWidth 32).toInt : ℝ) : EReal)) = _
  rw [bit_toInt, Ideal.ofBits_zero_f32]
  unfold gates gate
  exact rfl

/-- Column k put back into row r is (r, k). -/
theorem lift_col (r : Fin 256) (k : Fin 2048) : reduces_S256x2048_S256.lift (ix1 r) k = ix2 r k := by idx_ext

theorem topV_at (r : Fin 256) : topV v0 v2 v8 (ix1 r) = top (qB v0 r) (kB v2) (bB v8 r) := by
  unfold topV
  refine (Ideal.multiReduction_maximumf_single (gatesV v0 v2 v8) 0xFF800000#32 reduces_S256x2048_S256 (.inl rfl) rfl (ix1 r)).trans ?_
  rw [Ideal.ofBits_def, ofBits_negInf]
  unfold top
  refine Finset.fold_congr fun k _ => ?_
  exact (congrArg (gatesV v0 v2 v8) (lift_col r k)).trans (gatesV_at v0 v2 v8 r k)

/-- The exponential of a vector, at an index. -/
theorem exp_at (x : FVec Ideal S256x2048 .f32) (i : S256x2048.Idx) : exp x i = Ideal.exp (x i) := rfl

theorem weightsV_at (r : Fin 256) (t : Fin 2048) :
    weightsV v0 v2 v8 (ix2 r t) = weight (qB v0 r) (kB v2) (bB v8 r) t := by
  unfold weightsV
  rw [exp_at, subf_apply, gatesV_at, column_broadcast_apply, topV_at]
  unfold weight
  exact rfl

theorem massV_at (r : Fin 256) : massV v0 v2 v8 (ix1 r) = mass (qB v0 r) (kB v2) (bB v8 r) := by
  unfold massV
  refine (Ideal.multiReduction_add_single (weightsV v0 v2 v8) 0x00000000#32 reduces_S256x2048_S256 (.inl rfl) rfl (ix1 r)).trans ?_
  unfold mass
  refine Finset.sum_congr rfl fun k _ => ?_
  exact (congrArg (weightsV v0 v2 v8) (lift_col r k)).trans (weightsV_at v0 v2 v8 r k)

theorem probsV_at (r : Fin 256) (t : Fin 2048) :
    probsV v0 v2 v8 (ix2 r t)
      = Ideal.div (weight (qB v0 r) (kB v2) (bB v8 r) t) (mass (qB v0 r) (kB v2) (bB v8 r)) := by
  unfold probsV
  rw [truncf_apply, divf_apply, weightsV_at, column_broadcast_apply, massV_at]

theorem outV_at (r : Fin 256) (u : Fin 2048) :
    outV v0 v2 v8 v24 (ix2 r u) = rowOut (qB v0 r) (kB v2) (bB v8 r) (vB v24) u := by
  unfold outV
  simp only [matmul]
  rw [Ideal.matmul_constant_zero_apply,
    ← Equiv.sum_comp (contrEquiv1 dot_S256x2048_S2048x2048_S256x2048_1_0_0_1_n_n 2048 rfl rfl).symm]
  unfold rowOut
  refine Finset.sum_congr rfl fun k _ => ?_
  rw [lhs2, rhs2, probsV_at, shapeCast_self]

/-- Row r of the stored block is the attention row of query r. -/
theorem pay_at (r : Fin 256) (u : Fin 2048) :
    k0_pay1 (F := Ideal) v0 v2 v8 v24 (ix4 (0 : Fin 1) (0 : Fin 1) r u) = rowOut (qB v0 r) (kB v2) (bB v8 r) (vB v24) u := by
  rw [pay_eq]
  refine (shapeCast_apply (outV v0 v2 v8 v24) shapeCasts_S256x2048_S1x1x256x2048 _ (ix2 r u) (by
    rw [Shape.rowMajor_val_four, Shape.rowMajor_val_two]
    show r.val * 2048 + u.val = ((0 * 1 + 0) * 256 + r.val) * 2048 + u.val
    omega)).trans ?_
  exact outV_at v0 v2 v8 v24 r u

end Cert.KernelIdeal.Body

end
-- ==== Proof.KernelBlocks.lean ====
/-
  From the blocks to the whole array.

  The grid has one point per head and per block of 256 query rows. The point (h, b) reads rows 256·b … 256·b + 255 of head h
  of the first argument, all of the second, the same 256 rows of the third, and all of the third again; it writes rows
  256·b … 256·b + 255 of head h of the result. The arrays the region finds for the first, second and fourth operands are the
  arguments themselves: the host operations before the region only change the float format, which is the identity on the
  extended reals. Since row r of the body's stored block is the attention row of query row 256·b + r, what each point writes
  back is its block of the one function `G` of the arguments, and the 96 blocks cover the result array.
-/
import proofs.«182256_j15908558865563_1_alg».proof.Proof.Gen.KernelIdeal.Value
import proofs.«182256_j15908558865563_1_alg».proof.Proof.KernelRow
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Cert.KernelIdeal.Body
open Idealize.ShloMosaic.ValueIdx Cert.AttnRow

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Query row `r` of block `b` is row `256·b + r` of the array. -/
abbrev row (b : Fin 8) (r : Fin 256) : Fin 2048 := ⟨b.val * 256 + r.val, by have := b.isLt; have := r.isLt; omega⟩

/-! ## Row r of a block is a row of G -/

/-- If the four loaded blocks are the stated rows of three arrays, the stored block's row r is row `256·b + r` of head h of
    `G` of those arrays. -/
theorem pay_block (x0 : Vec Ideal S1x1x256x64 .bf16) (x1 : Vec Ideal S2048x64 .bf16) (x2 : Vec Ideal S256x2048 .f32)
    (x3 : Vec Ideal S2048x2048 .bf16)
    (A0 : S1x12x2048x64.Idx → EReal) (A1 : S2048x64.Idx → EReal) (A2 : S2048x2048.Idx → EReal) (h : Fin 12) (b : Fin 8)
    (e0 : ∀ (r : Fin 256) (d : Fin 64), x0 (ix4 (0 : Fin 1) (0 : Fin 1) r d) = A0 (ix4 (0 : Fin 1) h (row b r) d))
    (e1 : ∀ (t : Fin 2048) (d : Fin 64), x1 (ix2 t d) = A1 (ix2 t d))
    (e2 : ∀ (r : Fin 256) (t : Fin 2048), x2 (ix2 r t) = A2 (ix2 (row b r) t))
    (e3 : ∀ (t u : Fin 2048), x3 (ix2 t u) = A2 (ix2 t u))
    (r : Fin 256) (u : Fin 2048) :
    k0_pay1 (F := Ideal) x0 x1 x2 x3 (ix4 (0 : Fin 1) (0 : Fin 1) r u) = G A0 A1 A2 (ix4 (0 : Fin 1) h (row b r) u) := by
  rw [pay_at]
  have q : qB x0 r = qrow A0 h (row b r) := funext fun d => e0 r d
  have k : kB x1 = keys A1 := funext fun t => funext fun d => e1 t d
  have bb : bB x2 r = brow A2 (row b r) := funext fun t => e2 r t
  have v : vB x3 = vals A2 := funext fun t => funext fun u => e3 t u
  rw [q, k, bb, v]
  exact rfl

/-! ## The arrays the region finds -/

theorem V_v0 (c : Dev nD) : (V m c main_v0 : S1x12x2048x64.Idx → EReal) = m ((c : Thread nD τ).loc main_arg0) := by
  dsimp only [Gen.V, Gen.hostOps0]; after_results; rfl
theorem V_v1 (c : Dev nD) : (V m c main_v1 : S2048x64.Idx → EReal) = m ((c : Thread nD τ).loc main_arg1) := by
  dsimp only [Gen.V, Gen.hostOps0]; after_results; rfl
theorem V_v2 (c : Dev nD) : (V m c main_v2 : S2048x2048.Idx → EReal) = m ((c : Thread nD τ).loc main_arg2) := by
  dsimp only [Gen.V, Gen.hostOps0]; after_results; rfl

/-! ## The index maps, decided over the 96 points -/

theorem idx_facts : ∀ t : Fin cfg0.N,
    win0_4.index t (0 : Fin 4) = 0 ∧ win0_4.index t (1 : Fin 4) < 12 ∧ win0_4.index t (2 : Fin 4) < 8 ∧ win0_4.index t (3 : Fin 4) = 0
    ∧ win0_0.index t (0 : Fin 4) = 0 ∧ win0_0.index t (1 : Fin 4) = win0_4.index t (1 : Fin 4)
    ∧ win0_0.index t (2 : Fin 4) = win0_4.index t (2 : Fin 4) ∧ win0_0.index t (3 : Fin 4) = 0
    ∧ win0_1.index t (0 : Fin 2) = 0 ∧ win0_1.index t (1 : Fin 2) = 0
    ∧ win0_2.index t (0 : Fin 2) = win0_4.index t (2 : Fin 4) ∧ win0_2.index t (1 : Fin 2) = 0
    ∧ win0_3.index t (0 : Fin 2) = 0 ∧ win0_3.index t (1 : Fin 2) = 0 :=
  (by decide +kernel : ∀ t : Fin grid0.N, _)

/-- Every (head, row block) pair is some point's. -/
theorem idx_onto : ∀ (q1 : Fin 12) (q2 : Fin 8), ∃ t : Fin cfg0.N, win0_4.index t = ![0, q1.val, q2.val, 0] :=
  (by decide +kernel : ∀ (q1 : Fin 12) (q2 : Fin 8), ∃ t : Fin grid0.N, win0_4.index t = ![0, q1.val, q2.val, 0])

/-! ## What a point writes back -/

theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2))) := by
  rw [Value.flushed4]
  unfold out0_4
  rw [View.canon_unit_zero hz4]
  simp only [View.ld_unit_zero (S := S1x1x256x64) hz4, View.ld_unit_zero (S := S2048x64) hz2,
    View.ld_unit_zero (S := S256x2048) hz2, View.ld_unit_zero (S := S2048x2048) hz2]
  obtain ⟨f0, f1, f2, f3, g0, g1, g2, g3, k0, k1, b0, b1, w0, w1⟩ := idx_facts t
  funext y
  revert y
  show ∀ y : S1x1x256x2048.Idx, k0_pay1 (F := Ideal) (iblk m c 0 t) (iblk m c 1 t) (iblk m c 2 t) (iblk m c 3 t) y
    = G (m ((c : Thread nD τ).loc main_arg0)) (m ((c : Thread nD τ).loc main_arg1)) (m ((c : Thread nD τ).loc main_arg2))
        (((cfg0.win 4).blk t).view.emb y)
  intro y
  obtain ⟨a, b, r, u, rfl⟩ : ∃ (a b : Fin 1) (r : Fin 256) (u : Fin 2048), y = ix4 a b r u := ⟨y 0, y 1, y 2, y 3, eq_ix4 y⟩
  obtain rfl : a = 0 := Subsingleton.elim _ _
  obtain rfl : b = 0 := Subsingleton.elim _ _
  have ey : ((cfg0.win 4).blk t).view.emb (ix4 (0 : Fin 1) (0 : Fin 1) r u)
      = ix4 (0 : Fin 1) (⟨win0_4.index t (1 : Fin 4), f1⟩ : Fin 12) (row ⟨win0_4.index t (2 : Fin 4), f2⟩ r) u := by
    funext a; apply Fin.ext
    match a with
    | ⟨0, _⟩ => show win0_4.index t (0 : Fin 4) * 1 + 1 * 0 = 0; omega
    | ⟨1, _⟩ => show win0_4.index t (1 : Fin 4) * 1 + 1 * 0 = win0_4.index t (1 : Fin 4); omega
    | ⟨2, _⟩ => show win0_4.index t (2 : Fin 4) * 256 + 1 * r.val = win0_4.index t (2 : Fin 4) * 256 + r.val; omega
    | ⟨3, _⟩ => show win0_4.index t (3 : Fin 4) * 2048 + 1 * u.val = u.val; omega
  rw [ey]
  refine pay_block (iblk m c 0 t) (iblk m c 1 t) (iblk m c 2 t) (iblk m c 3 t) _ _ _ _ _ ?_ ?_ ?_ ?_ r u
  · intro r d
    show V m c main_v0 (((cfg0.win 0).blk t).view.emb (ix4 (0 : Fin 1) (0 : Fin 1) r d)) = _
    rw [V_v0]
    refine congrArg _ (funext fun a => Fin.ext ?_)
    match a with
    | ⟨0, _⟩ => show win0_0.index t (0 : Fin 4) * 1 + 1 * 0 = 0; omega
    | ⟨1, _⟩ => show win0_0.index t (1 : Fin 4) * 1 + 1 * 0 = win0_4.index t (1 : Fin 4); omega
    | ⟨2, _⟩ => show win0_0.index t (2 : Fin 4) * 256 + 1 * r.val = win0_4.index t (2 : Fin 4) * 256 + r.val; omega
    | ⟨3, _⟩ => show win0_0.index t (3 : Fin 4) * 64 + 1 * d.val = d.val; omega
  · intro s d
    show V m c main_v1 (((cfg0.win 1).blk t).view.emb (ix2 s d)) = _
    rw [V_v1]
    refine congrArg _ (funext fun a => Fin.ext ?_)
    match a with
    | ⟨0, _⟩ => show win0_1.index t (0 : Fin 2) * 2048 + 1 * s.val = s.val; omega
    | ⟨1, _⟩ => show win0_1.index t (1 : Fin 2) * 64 + 1 * d.val = d.val; omega
  · intro r s
    show V m c main_arg2 (((cfg0.win 2).blk t).view.emb (ix2 r s)) = _
    rw [V_main_arg2]
    refine congrArg _ (funext fun a => Fin.ext ?_)
    match a with
    | ⟨0, _⟩ => show win0_2.index t (0 : Fin 2) * 256 + 1 * r.val = win0_4.index t (2 : Fin 4) * 256 + r.val; omega
    | ⟨1, _⟩ => show win0_2.index t (1 : Fin 2) * 2048 + 1 * s.val = s.val; omega
  · intro s u
    show V m c main_v2 (((cfg0.win 3).blk t).view.emb (ix2 s u)) = _
    rw [V_v2]
    refine congrArg _ (funext fun a => Fin.ext ?_)
    match a with
    | ⟨0, _⟩ => show win0_3.index t (0 : Fin 2) * 2048 + 1 * s.val = s.val; omega
    | ⟨1, _⟩ => show win0_3.index t (1 : Fin 2) * 2048 + 1 * u.val = u.val; omega

/-! ## The blocks cover the array -/

theorem mem_blk (t : Fin cfg0.N) (i : S1x12x2048x2048.Idx) :
    i ∈ ((cfg0.win 4).blk t).view.set ↔ ∀ a : Fin 4, win0_4.index t a * S1x1x256x2048.size a ≤ (i a).val
      ∧ (i a).val < win0_4.index t a * S1x1x256x2048.size a + S1x1x256x2048.size a := by
  show i ∈ ((View.whole main_v3).slice (win0_4.rect t)).set ↔ _
  rw [View.set_slice_whole, Rect.mem_set_unit]
  exact Iff.rfl

theorem cover (i : S1x12x2048x2048.Idx) :
    ∃ t : Fin cfg0.N, (cfg0.win 4).flush t = true ∧ i ∈ ((cfg0.win 4).blk t).view.set := by
  have hi0 : (i 0).val < 1 := (i 0).isLt
  have hi1 : (i 1).val < 12 := (i 1).isLt
  have hi2 : (i 2).val < 2048 := (i 2).isLt
  have hi3 : (i 3).val < 2048 := (i 3).isLt
  obtain ⟨t, ht⟩ := idx_onto ⟨(i 1).val, hi1⟩ ⟨(i 2).val / 256, by omega⟩
  have q0 : win0_4.index t (0 : Fin 4) = 0 := congrFun ht 0
  have q1 : win0_4.index t (1 : Fin 4) = (i 1).val := congrFun ht 1
  have q2 : win0_4.index t (2 : Fin 4) = (i 2).val / 256 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 2048 ≤ (i 3).val ∧ (i 3).val < win0_4.index t (3 : Fin 4) * 2048 + 2048; omega

/-- The result array after the run is `G` of the arguments. -/
theorem final (c : Dev nD) : (dats m 0 c).arrAt 4 cfg0.N
    = G (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run, read: the result at `G` of the arguments, the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.lean ====
/-
  The kernel and its reference compute the same attention.

  The kernel multiplies 256-row blocks of queries of one head against all keys, scales, adds the matching rows of a third
  matrix, keeps only the bit "logit ≤ 0", and runs a softmax over those 0/1 gates before multiplying by the third matrix
  again. The reference does the same on whole arrays with two extra steps that change nothing: it adds g − g to each gate,
  where g is the greatest scaled dot product over the heads (zero, because the arguments hold ordinary reals), and it
  takes the greatest gate against −∞ once more. On the extended reals both results are the one function `Cert.AttnRow.G` of
  the three arguments, index by index.

  The three frames: the two kernels' frame runs, and the reference's run with its result dropped. The idealized kernel is the
  kernel's own text read on the extended reals, so there is nothing to preserve.
-/
import proofs.«182256_j15908558865563_1_alg».proof.Defs
import proofs.«182256_j15908558865563_1_alg».proof.Proof.Gen.Kernel
import proofs.«182256_j15908558865563_1_alg».proof.Proof.Gen.Kernel.Skeleton
import proofs.«182256_j15908558865563_1_alg».proof.Proof.Gen.Kernel.Launch
import proofs.«182256_j15908558865563_1_alg».proof.Proof.Gen.Kernel.Points
import proofs.«182256_j15908558865563_1_alg».proof.Proof.Gen.Kernel.Frame
import proofs.«182256_j15908558865563_1_alg».proof.Proof.Gen.KernelIdeal
import proofs.«182256_j15908558865563_1_alg».proof.Proof.Gen.KernelIdeal.Skeleton
import proofs.«182256_j15908558865563_1_alg».proof.Proof.Gen.KernelIdeal.Launch
import proofs.«182256_j15908558865563_1_alg».proof.Proof.Gen.KernelIdeal.Points
import proofs.«182256_j15908558865563_1_alg».proof.Proof.Gen.KernelIdeal.Frame
import proofs.«182256_j15908558865563_1_alg».proof.Proof.Gen.ReferenceIdeal
import proofs.«182256_j15908558865563_1_alg».proof.Proof.Gen.Pre_finite_inputs
import proofs.«182256_j15908558865563_1_alg».proof.Proof.Gen.KernelIdeal.Value
import proofs.«182256_j15908558865563_1_alg».proof.Proof.Gen.ReferenceIdeal.Run
import proofs.«182256_j15908558865563_1_alg».proof.Proof.Gen.ReferenceIdeal.Read
import proofs.«182256_j15908558865563_1_alg».proof.Proof.AttnRow
import proofs.«182256_j15908558865563_1_alg».proof.Proof.InputsReal
import proofs.«182256_j15908558865563_1_alg».proof.Proof.RefRow
import proofs.«182256_j15908558865563_1_alg».proof.Proof.KernelRow
import proofs.«182256_j15908558865563_1_alg».proof.Proof.KernelBlocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the arguments: the kernel's by its blocks, the reference's stage by
    stage, using that the arguments hold ordinary reals. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _⟩ := Cert.Pre_finite_inputs.Reals.reals_of_pre _ _ _ (hpre c)
  rw [Cert.ReferenceIdeal.Read.val_main_v25_eq, (hagree c).1, (hagree c).2.1, (hagree c).2.2]
  exact Cert.ReferenceIdeal.RefRow.result_eq _ _ _ h0 h1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
